-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : FVec F S128x64 .f32) (main_arg2 : FVec F S64 .f32) (main_arg3 : FVec F S64x64 .f32) (main_arg4 : FVec F S64 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 60
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x64, .bf16⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .bf16⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S1x64, .f32⟩
  | .hbm, ⟨43, _⟩ => ⟨S50000x64, .bf16⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .bf16⟩
  | .hbm, ⟨53, _⟩ => ⟨S800000x64, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S1x64, .f32⟩
  | .hbm, ⟨59, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x1, .f32⟩
  | .local _ .vmem, ⟨14, _⟩ => ⟨S5000x1, .f32⟩
  | .local _ .vmem, ⟨15, _⟩ => ⟨S5000x64, .bf16⟩
  | .local _ .vmem, ⟨16, _⟩ => ⟨S5000x64, .bf16⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .bf16 = 32 ∨ (Rect.block (s := S50000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .bf16 = 32 ∨ (Rect.block (s := S50000x64) S5000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x64 : Shape := ⟨2, ![50000, 64]⟩
abbrev S50000x1 : Shape := ⟨2, ![50000, 1]⟩
abbrev S800000x64 : Shape := ⟨2, ![800000, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x64, .f32⟩
  | .hbm, ⟨26, _⟩ => ⟨S50000x1, .f32⟩
  | .hbm, ⟨27, _⟩ => ⟨S50000x64, .f32⟩
  | .hbm, ⟨28, _⟩ => ⟨S50000x64, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S50000x1, .f32⟩
  | .hbm, ⟨43, _⟩ => ⟨S50000x64, .f32⟩
  | .hbm, ⟨44, _⟩ => ⟨S50000x64, .f32⟩
  | .hbm, ⟨45, _⟩ => ⟨S1x64, .f32⟩
  | .hbm, ⟨46, _⟩ => ⟨S50000x64, .f32⟩
  | .hbm, ⟨47, _⟩ => ⟨S50000x64, .f32⟩
  | .hbm, ⟨48, _⟩ => ⟨S_, .f32⟩
  | .hbm, ⟨49, _⟩ => ⟨S50000x64, .f32⟩
  | .hbm, ⟨50, _⟩ => ⟨S50000x64, .f32⟩
  | .hbm, ⟨51, _⟩ => ⟨S50000x64, .f32⟩
  | .hbm, ⟨52, _⟩ => ⟨S50000x1, .f32⟩
  | .hbm, ⟨53, _⟩ => ⟨S50000x64, .f32⟩
  | .hbm, ⟨54, _⟩ => ⟨S50000x64, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x64, .f32⟩
  | .hbm, ⟨64, _⟩ => ⟨S_, .f32⟩
  | .hbm, ⟨65, _⟩ => ⟨S50000x64, .f32⟩
  | .hbm, ⟨66, _⟩ => ⟨S800000x1, .i32⟩
  | .hbm, ⟨67, _⟩ => ⟨S50000x64, .f32⟩
  | .hbm, ⟨68, _⟩ => ⟨S50000x1, .f32⟩
  | .hbm, ⟨69, _⟩ => ⟨S50000x64, .f32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRun.lean ====
/-
  The kernel's program run from its launch memory, with the result buffer named: every weakly fair execution
  terminates without a fault, the result buffer ends at what the last launch's write-backs leave in it (the last of the
  buffer contents folded through the program's host stretches and launches), and the seven argument buffers end as
  launched.
-/
import proofs.«109330_j71244917506158_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.Ideal

set_option maxRecDepth 16384

noncomputable section

namespace Cert.Gnn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the program on the TensorCores from any memory with zero counters terminates without
    fault; in every final state the result buffer holds the last boundary's contents and each argument array is as
    launched. -/
theorem krun : θ_run (defs (F := Ideal)) (onTc (τ := τ) (main (F := Ideal))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.Gnn

end
-- ==== Proof.KHost.lean ====
/-
  The host-side functions of the kernel's program, each the composition of the host operations between two launches,
  named once so that later modules carry them whole:
  `dvec`  — the inverse square root of a node's degree clamped below by one, the degree being the number of edges whose
             index vector names the node (a sum of ones scattered by the indices);
  `dcol`  — that vector as a column;
  `brow`  — a bias vector as a row;
  `prop`  — one message-passing step: gather the rows of `h` named by the source indices (a negative index first
             wrapped by the number of nodes), widen them, and add each gathered row into the row named by its
             destination index, starting from zero.
-/
import proofs.«109330_j71244917506158_2_alg».proof.KernelIdeal
import proofs.«109330_j71244917506158_2_alg».proof.Proof.Gen.KernelIdeal

noncomputable section

namespace Cert.Gnn.K

open Idealize.ShloMosaic Cert.KernelIdeal Cert.KernelIdeal.Facts₀ Cert.KernelIdeal.Facts

variable {F : FTy → Type} [FloatOps F]

/-- rsqrt (max (number of edges naming the node, 1)). -/
def dvec (x : IVec S800000 32) : FVec F S50000 .f32 :=
  Host.rsqrt (maximumf
    (Host.scatterAdd scatter_S50000_S800000x1_S800000_n_0_0_1
      (broadcastInDim S50000 ![] bcast_S_S50000 (constant S_ .f32 0x00000000#32))
      (broadcastInDim S800000x1 ![0] bcast_S800000_S800000x1_0 x)
      (broadcastInDim S800000 ![] bcast_S_S800000 (constant S_ .f32 0x3F800000#32)))
    (broadcastInDim S50000 ![] bcast_S_S50000 (constant S_ .f32 0x3F800000#32)))

/-- The degree scale as a column. -/
def dcol (x : IVec S800000 32) : FVec F S50000x1 .f32 := shapeCast S50000x1 (dvec (F := F) x) shapeCasts_S50000_S50000x1

/-- A bias as a row. -/
def brow (b : FVec F S64 .f32) : FVec F S1x64 .f32 := shapeCast S1x64 b shapeCasts_S64_S1x64

/-- The source indices, a negative one wrapped by the number of nodes, as a column of index vectors. -/
def srcIdx (x5 : IVec S800000 32) : IVec S800000x1 32 :=
  broadcastInDim S800000x1 ![0] bcast_S800000_S800000x1_0
    (select (cmpi .slt x5 (broadcastInDim S800000 ![] bcast_S_S800000 (constantI S_ 32 0#32)))
      (addi x5 (broadcastInDim S800000 ![] bcast_S_S800000 (constantI S_ 32 50000#32))) x5)

/-- Gather by source, widen, scatter-add by destination from zero. -/
def prop (h : FVec F S50000x64 .bf16) (x5 x6 : IVec S800000 32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 x6)
    (extf .f32 (Host.gather gather_S50000x64_S800000x1_S800000x64_1_0_n_n_0_1_164 h (srcIdx x5)) bitsLt_bf16_f32)

end Cert.Gnn.K

end
-- ==== Proof.KPlumb.lean ====
/-
  The host plumbing between the program's three launches: what each launch finds in its operand buffers and what it
  leaves in its result buffer, in terms of the launch memory. An argument buffer is written by no host operation and by
  no launch, so it holds the launch memory throughout; a buffer a host stretch writes holds the stretch's operations
  composed, applied to the contents before the stretch; a launch leaves every buffer that is not one of its arrays, and
  every input array, as it found it.
-/
import proofs.«109330_j71244917506158_2_alg».proof.Proof.Gen.KernelIdeal.Frame
import proofs.«109330_j71244917506158_2_alg».proof.Proof.KHost
import Idealize.ShloMosaic.PureOps.Ideal

set_option maxRecDepth 16384

noncomputable section

namespace Cert.Gnn

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## The launches' result arrays at their exits -/

theorem out0 (c : Dev nD) : W2 m ρ c (Proc.devRef .tc main_v15) = (dat0 (V1 m ρ) c).arrAt 3 cfg0.N := W2_arr m ρ c 3
theorem out1 (c : Dev nD) : W4 m ρ c (Proc.devRef .tc main_v28) = (dat1 (V3 m ρ) c).arrAt 5 cfg1.N := W4_arr m ρ c 5
theorem out2 (c : Dev nD) : W6 m ρ c (Proc.devRef .tc main_v41) = (dat2 (V5 m ρ) c).arrAt 3 cfg2.N := W6_arr m ρ c 3

/-! ## The argument buffers hold the launch memory at every boundary -/

theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg0) = W0 m ρ c (Proc.devRef .tc main_arg0)).trans rfl
theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg1) = W0 m ρ c (Proc.devRef .tc main_arg1)).trans rfl
theorem W1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg2) = W0 m ρ c (Proc.devRef .tc main_arg2)).trans rfl
theorem W1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg3) = W0 m ρ c (Proc.devRef .tc main_arg3)).trans rfl
theorem W1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg4) = W0 m ρ c (Proc.devRef .tc main_arg4)).trans rfl
theorem W1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg5) = W0 m ρ c (Proc.devRef .tc main_arg5)).trans rfl
theorem W1_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg6) = W0 m ρ c (Proc.devRef .tc main_arg6)).trans rfl
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W3_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg2) = W2 m ρ c (Proc.devRef .tc main_arg2)).trans (W2_arg2 m ρ c)
theorem W3_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg3) = W2 m ρ c (Proc.devRef .tc main_arg3)).trans (W2_arg3 m ρ c)
theorem W3_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg4) = W2 m ρ c (Proc.devRef .tc main_arg4)).trans (W2_arg4 m ρ c)
theorem W3_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg5) = W2 m ρ c (Proc.devRef .tc main_arg5)).trans (W2_arg5 m ρ c)
theorem W3_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_arg6) = W2 m ρ c (Proc.devRef .tc main_arg6)).trans (W2_arg6 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)

/-! ## The host stretches' results, over any contents before the stretch -/

theorem host0_v10 (G : Valuation τ sig (Elt Ideal)) :
    StableHlo.after hostOps0 G (Proc.devRef .tc main_v10) = K.dcol (F := Ideal) (G (Proc.devRef .tc main_arg5)) := by
  after_results
  rfl
theorem host0_v14 (G : Valuation τ sig (Elt Ideal)) :
    StableHlo.after hostOps0 G (Proc.devRef .tc main_v14) = K.dcol (F := Ideal) (G (Proc.devRef .tc main_arg6)) := by
  after_results
  rfl
theorem host1_v26 (G : Valuation τ sig (Elt Ideal)) :
    StableHlo.after hostOps1 G (Proc.devRef .tc main_v26)
      = K.prop (F := Ideal) (G (Proc.devRef .tc main_v15)) (G (Proc.devRef .tc main_arg5)) (G (Proc.devRef .tc main_arg6)) := by
  after_results
  rfl
theorem host1_v27 (G : Valuation τ sig (Elt Ideal)) :
    StableHlo.after hostOps1 G (Proc.devRef .tc main_v27) = K.brow (F := Ideal) (G (Proc.devRef .tc main_arg2)) := by
  after_results
  rfl
theorem host2_v39 (G : Valuation τ sig (Elt Ideal)) :
    StableHlo.after hostOps2 G (Proc.devRef .tc main_v39)
      = K.prop (F := Ideal) (G (Proc.devRef .tc main_v28)) (G (Proc.devRef .tc main_arg5)) (G (Proc.devRef .tc main_arg6)) := by
  after_results
  rfl
theorem host2_v40 (G : Valuation τ sig (Elt Ideal)) :
    StableHlo.after hostOps2 G (Proc.devRef .tc main_v40) = K.brow (F := Ideal) (G (Proc.devRef .tc main_arg4)) := by
  after_results
  rfl

/-! ## The degree scales, written once before the first launch, carried to the later launches -/

theorem W1_v10 (c : Dev nD) : W1 m ρ c (Proc.devRef .tc main_v10) = K.dcol (F := Ideal) (m ((c : Thread nD τ).loc main_arg5)) :=
  host0_v10 (W0 m ρ c)
theorem W1_v14 (c : Dev nD) : W1 m ρ c (Proc.devRef .tc main_v14) = K.dcol (F := Ideal) (m ((c : Thread nD τ).loc main_arg6)) :=
  host0_v14 (W0 m ρ c)
theorem W2_v10 (c : Dev nD) : W2 m ρ c (Proc.devRef .tc main_v10) = K.dcol (F := Ideal) (m ((c : Thread nD τ).loc main_arg5)) :=
  ((W2_arr m ρ c 2).trans (((dat0 (V1 m ρ) c).arrAt_in 2 rfl _).trans (A_eq0 (V1 m ρ) c 2))).trans (W1_v10 m ρ c)
theorem W2_v14 (c : Dev nD) : W2 m ρ c (Proc.devRef .tc main_v14) = K.dcol (F := Ideal) (m ((c : Thread nD τ).loc main_arg6)) :=
  (W2_of_ne m ρ c main_v14 (by decide)).trans (W1_v14 m ρ c)
theorem W3_v10 (c : Dev nD) : W3 m ρ c (Proc.devRef .tc main_v10) = K.dcol (F := Ideal) (m ((c : Thread nD τ).loc main_arg5)) :=
  (StableHlo.after_of_forall_not_mem (b := Proc.devRef .tc main_v10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_v10) = W2 m ρ c (Proc.devRef .tc main_v10)).trans (W2_v10 m ρ c)
theorem W3_v14 (c : Dev nD) : W3 m ρ c (Proc.devRef .tc main_v14) = K.dcol (F := Ideal) (m ((c : Thread nD τ).loc main_arg6)) :=
  (StableHlo.after_of_forall_not_mem (b := Proc.devRef .tc main_v14) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W3 m ρ c (Proc.devRef .tc main_v14) = W2 m ρ c (Proc.devRef .tc main_v14)).trans (W2_v14 m ρ c)
theorem W4_v14 (c : Dev nD) : W4 m ρ c (Proc.devRef .tc main_v14) = K.dcol (F := Ideal) (m ((c : Thread nD τ).loc main_arg6)) :=
  ((W4_arr m ρ c 1).trans (((dat1 (V3 m ρ) c).arrAt_in 1 rfl _).trans (A_eq1 (V3 m ρ) c 1))).trans (W3_v14 m ρ c)
theorem W5_v14 (c : Dev nD) : W5 m ρ c (Proc.devRef .tc main_v14) = K.dcol (F := Ideal) (m ((c : Thread nD τ).loc main_arg6)) :=
  (StableHlo.after_of_forall_not_mem (b := Proc.devRef .tc main_v14) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W5 m ρ c (Proc.devRef .tc main_v14) = W4 m ρ c (Proc.devRef .tc main_v14)).trans (W4_v14 m ρ c)

/-! ## The first launch's operands as it finds them -/

theorem in0_x (c : Dev nD) : V1 m ρ c main_arg0 = m ((c : Thread nD τ).loc main_arg0) := W1_arg0 m ρ c
theorem in0_w (c : Dev nD) : V1 m ρ c main_arg1 = m ((c : Thread nD τ).loc main_arg1) := W1_arg1 m ρ c
theorem in0_d (c : Dev nD) : V1 m ρ c main_v10 = K.dcol (F := Ideal) (m ((c : Thread nD τ).loc main_arg5)) := W1_v10 m ρ c

/-! ## The second launch's -/

theorem in1_g (c : Dev nD) : V3 m ρ c main_v26 = K.prop (F := Ideal) (W2 m ρ c (Proc.devRef .tc main_v15)) (m ((c : Thread nD τ).loc main_arg5)) (m ((c : Thread nD τ).loc main_arg6)) :=
  (host1_v26 (W2 m ρ c)).trans (congrArg₂ (K.prop (F := Ideal) (W2 m ρ c (Proc.devRef .tc main_v15))) (W2_arg5 m ρ c) (W2_arg6 m ρ c))
theorem in1_din (c : Dev nD) : V3 m ρ c main_v14 = K.dcol (F := Ideal) (m ((c : Thread nD τ).loc main_arg6)) := W3_v14 m ρ c
theorem in1_b (c : Dev nD) : V3 m ρ c main_v27 = K.brow (F := Ideal) (m ((c : Thread nD τ).loc main_arg2)) :=
  (host1_v27 (W2 m ρ c)).trans (congrArg (K.brow (F := Ideal)) (W2_arg2 m ρ c))
theorem in1_w (c : Dev nD) : V3 m ρ c main_arg3 = m ((c : Thread nD τ).loc main_arg3) := W3_arg3 m ρ c
theorem in1_dout (c : Dev nD) : V3 m ρ c main_v10 = K.dcol (F := Ideal) (m ((c : Thread nD τ).loc main_arg5)) := W3_v10 m ρ c

/-! ## The third launch's -/

theorem in2_g (c : Dev nD) : V5 m ρ c main_v39 = K.prop (F := Ideal) (W4 m ρ c (Proc.devRef .tc main_v28)) (m ((c : Thread nD τ).loc main_arg5)) (m ((c : Thread nD τ).loc main_arg6)) :=
  (host2_v39 (W4 m ρ c)).trans (congrArg₂ (K.prop (F := Ideal) (W4 m ρ c (Proc.devRef .tc main_v28))) (W4_arg5 m ρ c) (W4_arg6 m ρ c))
theorem in2_din (c : Dev nD) : V5 m ρ c main_v14 = K.dcol (F := Ideal) (m ((c : Thread nD τ).loc main_arg6)) := W5_v14 m ρ c
theorem in2_b (c : Dev nD) : V5 m ρ c main_v40 = K.brow (F := Ideal) (m ((c : Thread nD τ).loc main_arg4)) :=
  (host2_v40 (W4 m ρ c)).trans (congrArg (K.brow (F := Ideal)) (W4_arg4 m ρ c))

end Cert.Gnn

end
-- ==== Proof.Spec.lean ====
/-
  The layer arithmetic of a two-layer graph convolution, on extended reals, as functions of whole arrays read
  index by index. Rows are nodes. `lin` is a dense transform followed by a per-row scale:
  (a · w)(p, q) · d(p), the scale held as a column. `epi` is a per-row scale and a per-column shift:
  g(p, q) · d(p) + b(q), the scale a column and the shift a row. `clamp` bounds every entry below by `z`.
  All three act row by row: the value in row p depends on row p of the row-indexed operands only, which is what lets
  a block of rows be computed from the same block of rows of the operands.
-/
import Idealize.ShloMosaic.Lib.ValueIdx

noncomputable section

namespace Cert.Gnn

open Idealize.ShloMosaic Idealize.ShloMosaic.ValueIdx

/-- (a · w)(p, q) · d(p, 0). -/
def lin {M K N : Nat} (a : (⟨2, ![M, K]⟩ : Shape).Idx → EReal) (w : (⟨2, ![K, N]⟩ : Shape).Idx → EReal)
    (d : (⟨2, ![M, 1]⟩ : Shape).Idx → EReal) : (⟨2, ![M, N]⟩ : Shape).Idx → EReal :=
  fun j => (∑ k : Fin K, a (ix2 (j 0) k) * w (ix2 k (j 1))) * d (ix2 (j 0) (0 : Fin 1))

/-- g(p, q) · d(p, 0) + b(0, q). -/
def epi {M N : Nat} (g : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun j => g j * d (ix2 (j 0) (0 : Fin 1)) + b (ix2 (0 : Fin 1) (j 1))

/-- max (g(p, q), z). -/
def clamp {s : Shape} (z : EReal) (g : s.Idx → EReal) : s.Idx → EReal := fun j => max (g j) z

/-- A vector as a column: the entry of row p, whatever the unit coordinate. -/
def colOf {M : Nat} (v : (⟨1, ![M]⟩ : Shape).Idx → EReal) : (⟨2, ![M, 1]⟩ : Shape).Idx → EReal := fun j => v (ix1 (j 0))

/-- A vector as a row: the entry of column q. -/
def rowOf {N : Nat} (b : (⟨1, ![N]⟩ : Shape).Idx → EReal) : (⟨2, ![1, N]⟩ : Shape).Idx → EReal := fun j => b (ix1 (j 1))

theorem colOf_apply {M : Nat} (v : (⟨1, ![M]⟩ : Shape).Idx → EReal) (p : Fin M) (u : Fin 1) : colOf v (ix2 p u) = v (ix1 p) := rfl

theorem rowOf_apply {N : Nat} (b : (⟨1, ![N]⟩ : Shape).Idx → EReal) (u : Fin 1) (q : Fin N) : rowOf b (ix2 u q) = b (ix1 q) := rfl

/-- The zero of the 32-bit format, as an extended real. -/
abbrev z0 : EReal := Ideal.ofBits .f32 0x00000000#32

theorem lin_apply {M K N : Nat} (a : (⟨2, ![M, K]⟩ : Shape).Idx → EReal) (w : (⟨2, ![K, N]⟩ : Shape).Idx → EReal)
    (d : (⟨2, ![M, 1]⟩ : Shape).Idx → EReal) (p : Fin M) (q : Fin N) :
    lin a w d (ix2 p q) = (∑ k : Fin K, a (ix2 p k) * w (ix2 k q)) * d (ix2 p (0 : Fin 1)) := rfl

theorem epi_apply {M N : Nat} (g : (⟨2, ![M, N]⟩ : Shape).Idx → EReal) (d : (⟨2, ![M, 1]⟩ : Shape).Idx → EReal)
    (b : (⟨2, ![1, N]⟩ : Shape).Idx → EReal) (p : Fin M) (q : Fin N) :
    epi g d b (ix2 p q) = g (ix2 p q) * d (ix2 p (0 : Fin 1)) + b (ix2 (0 : Fin 1) q) := rfl

theorem clamp_apply {s : Shape} (z : EReal) (g : s.Idx → EReal) (j : s.Idx) : clamp z g j = max (g j) z := rfl

end Cert.Gnn

end
-- ==== Proof.KValue.lean ====
/-
  The whole network as one function of the seven argument arrays, on extended reals: two graph-convolution layers,
  each a dense transform scaled per row by the inverse square root of the source degree, one message-passing step,
  a per-row scale by the inverse square root of the destination degree and a bias; the first layer's output clamped
  below by zero before the second.
-/
import proofs.«109330_j71244917506158_2_alg».proof.Proof.Spec
import proofs.«109330_j71244917506158_2_alg».proof.Proof.KHost

noncomputable section

namespace Cert.Gnn

open Idealize.ShloMosaic Cert.KernelIdeal

/-- The first layer's transform, scaled by the source degrees. -/
def h1 (x0 : FVec Ideal S50000x128 .f32) (x1 : FVec Ideal S128x64 .f32) (x5 : IVec S800000 32) : FVec Ideal S50000x64 .f32 :=
  lin x0 x1 (K.dcol (F := Ideal) x5)

/-- The second layer's transform of the clamped first-layer output, scaled by the source degrees. -/
def h2 (x0 : FVec Ideal S50000x128 .f32) (x1 : FVec Ideal S128x64 .f32) (x2 : FVec Ideal S64 .f32) (x3 : FVec Ideal S64x64 .f32)
    (x5 x6 : IVec S800000 32) : FVec Ideal S50000x64 .f32 :=
  lin (clamp z0 (epi (K.prop (F := Ideal) (h1 x0 x1 x5) x5 x6) (K.dcol (F := Ideal) x6) (K.brow (F := Ideal) x2))) x3 (K.dcol (F := Ideal) x5)

/-- The network's output. -/
def gnn (x0 : FVec Ideal S50000x128 .f32) (x1 : FVec Ideal S128x64 .f32) (x2 : FVec Ideal S64 .f32) (x3 : FVec Ideal S64x64 .f32)
    (x4 : FVec Ideal S64 .f32) (x5 x6 : IVec S800000 32) : FVec Ideal S50000x64 .f32 :=
  epi (K.prop (F := Ideal) (h2 x0 x1 x2 x3 x5 x6) x5 x6) (K.dcol (F := Ideal) x6) (K.brow (F := Ideal) x4)

end Cert.Gnn

end
-- ==== Proof.LibPlain.lean ====
/-
  General facts, at the ideal values, about the plain two-dimensional matrix product and about reductions along the
  rows of a two-dimensional array, stated at indices built from their two coordinates; and two regroupings of a finite
  sum in a commutative monoid (by tiles of equal length; against a mask that keeps one index).
-/
import Idealize.ShloMosaic.Lib.ValueIdx
import Idealize.ShloMosaic.PureOps.Ideal.Laws
import Idealize.ShloMosaic.Lib.Pipeline.Value

noncomputable section

namespace Idealize.ShloMosaic

open ValueIdx

/-- In the plain product `[M,K] × [K,N]` the left operand is read at (row, k) -/
theorem plain_lhsIdx {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- and the right operand at (k, column). -/
theorem plain_rhsIdx {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- The matrix unit's product into a zero accumulator, at (p, q): the sum over k of L(p,k) · R(k,q). -/
theorem Ideal.matmul_plain_zero_apply {M K N : Nat} {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's product, at (p, q): the same sum. -/
theorem Ideal.dotGeneral_plain_apply {M K N : Nat} {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) := by
  rw [Ideal.dotGeneral_apply, ← Equiv.sum_comp (contrEquiv1 (DotDims.plain M K N) K rfl rfl).symm]
  exact Finset.sum_congr rfl fun k _ => by rw [plain_lhsIdx, plain_rhsIdx]

/-- Reducing the second axis of an `[M,N]` array: the source index over row `p` with coordinate `q` inserted is (p, q). -/
theorem lift_rows {M N : Nat} (h : (⟨2, ![M, N]⟩ : Shape).Reduces [1] ⟨1, ![M]⟩) (p : Fin M) (q : Fin N) :
    h.lift (ix1 p) q = ix2 p q := by
  funext a
  apply Fin.ext
  match a with
  | ⟨0, _⟩ => rfl
  | ⟨1, _⟩ => rfl

/-- A lane sum along the rows, at row `p`: the sum over the row. -/
theorem Ideal.multiReduction_add_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ q : Fin N, src (ix2 p q) := by
  rw [Ideal.multiReduction_add_single]
  exact Finset.sum_congr rfl fun q _ => congrArg src (lift_rows h p q)

/-- A lane maximum along the rows, at row `p`: the fold of `max` over the row from the accumulator's value. -/
theorem Ideal.multiReduction_maximumf_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun q => src (ix2 p q)) := by
  rw [Ideal.multiReduction_maximumf_single]
  exact congrArg (fun f => Finset.fold max (FloatOps.ofBits φ acc) f Finset.univ) (funext fun q => congrArg src (lift_rows h p q) : src ∘ h.lift (ix1 p) = fun q => src (ix2 p q))

/-- The same two facts with the accumulator's word spelt as a kernel's text spells it (the -inf word; the zero word), the
    format's proof the literal one. -/
theorem Ideal.multiReduction_maximumf_rows_f32 {M N : Nat} (src : FVec Ideal ⟨2, ![M, N]⟩ .f32) (h : (⟨2, ![M, N]⟩ : Shape).Reduces [1] ⟨1, ![M]⟩)
    (hacc : (0xFF800000#32 : BitVec 32) = 0xFF800000#32) (p : Fin M) :
    multiReduction .maximumf [1] ⟨1, ![M]⟩ src 0xFF800000#32 h (.inl rfl) hacc (ix1 p)
      = (Finset.univ : Finset (Fin N)).fold max (Ideal.ofBits .f32 0xFF800000#32) (fun q => src (ix2 p q)) :=
  Ideal.multiReduction_maximumf_rows src _ h (.inl rfl) hacc p
theorem Ideal.multiReduction_add_rows_f32 {M N : Nat} (src : FVec Ideal ⟨2, ![M, N]⟩ .f32) (h : (⟨2, ![M, N]⟩ : Shape).Reduces [1] ⟨1, ![M]⟩)
    (hacc : (0x00000000#32 : BitVec 32) = 0x00000000#32) (p : Fin M) :
    multiReduction .add [1] ⟨1, ![M]⟩ src 0x00000000#32 h (.inl rfl) hacc (ix1 p) = ∑ q : Fin N, src (ix2 p q) :=
  Ideal.multiReduction_add_rows src _ h (.inl rfl) hacc p

/-- The vector exponential at an index. -/
theorem exp_apply_ideal {s : Shape} {φ : FTy} (a : FVec Ideal s φ) (i : s.Idx) : Idealize.ShloMosaic.exp a i = Ideal.exp (a i) := rfl

/-- A rank-1 vector recast as a column, at (p, q): the vector at p. -/
theorem shapeCast_col {α : Type} {M : Nat} (x : (⟨1, ![M]⟩ : Shape).Idx → α) (h : (⟨1, ![M]⟩ : Shape).ShapeCasts ⟨2, ![M, 1]⟩)
    (p : Fin M) (q : Fin 1) : shapeCast ⟨2, ![M, 1]⟩ x h (ix2 p q) = x (ix1 p) := by
  refine shapeCast_apply x h (ix2 p q) (ix1 p) ?_
  rw [Shape.rowMajor_val_one, Shape.rowMajor_val_two]
  show p.val = p.val * 1 + q.val
  omega

/-- A column broadcast along the rows, at (p, q): the column at p. -/
theorem broadcastTo_col {α : Type} {M N : Nat} (x : (⟨2, ![M, 1]⟩ : Shape).Idx → α) (h : (⟨2, ![M, 1]⟩ : Shape).Broadcasts ⟨2, ![M, N]⟩)
    (p : Fin M) (q : Fin N) : broadcastTo ⟨2, ![M, N]⟩ x h (ix2 p q) = x (ix2 p 0) := by
  refine broadcastTo_apply x h (ix2 p q) (ix2 p 0) fun a => ?_
  match a with
  | ⟨0, _⟩ =>
    show p.val = if M = 1 then 0 else p.val
    split
    · have := p.isLt; omega
    · rfl
  | ⟨1, _⟩ =>
    show (0 : Fin 1).val = if (1 : Nat) = 1 then 0 else q.val
    rw [if_pos rfl]; rfl

namespace Layer
/-- Two linear maps with the clamp `max · z` before each, on one row. -/
def net {a b c : Nat} (z : EReal) (y : Fin a → EReal) (W1 : Fin a → Fin b → EReal) (W2 : Fin b → Fin c → EReal) (q : Fin c) : EReal :=
  ∑ k : Fin b, max (∑ j : Fin a, max (y j) z * W1 j k) z * W2 k q
/-- The softmax of one row, with the maximum taken from `ninf`. -/
def smax {c : Nat} (ninf : EReal) (l : Fin c → EReal) (q : Fin c) : EReal :=
  Ideal.div (Ideal.exp (l q - max ninf (Finset.univ.fold max ninf l)))
    (∑ q' : Fin c, Ideal.exp (l q' - max ninf (Finset.univ.fold max ninf l)))
/-- Both depend on their arguments only through their values. -/
theorem net_congr {a b c : Nat} (z : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    net z y W1 W2 q = net z y' W1' W2' q := by
  rw [funext hy, funext fun j => funext (h1 j), funext fun k => funext (h2 k)]
theorem smax_net_congr {a b c : Nat} (z ninf : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    smax ninf (net z y W1 W2) q = smax ninf (net z y' W1' W2') q := by
  rw [funext hy, funext fun j => funext (h1 j), funext fun k => funext (h2 k)]
end Layer

/-- A sum over `T · K` consecutive indices is the sum over the `T` tiles of the sums over each tile's `K` indices. -/
theorem sum_tiles {α : Type*} [AddCommMonoid α] (T K : Nat) (f : Fin (T * K) → α) :
    ∑ j, f j = ∑ t : Fin T, ∑ k : Fin K, f (finProdFinEquiv (t, k)) :=
  (Fintype.sum_equiv finProdFinEquiv (fun x => f (finProdFinEquiv x)) f (fun _ => rfl)).symm.trans (Fintype.sum_prod_type _)

end Idealize.ShloMosaic

end
-- ==== Proof.Bodies.lean ====
/-
  What each kernel body stores, as a function of the blocks it loads, on extended reals. A change of float format is the
  identity there, and the matrix unit's product into a zero accumulator is the plain sum over the contracted axis, so:
  the first body stores `lin` of its three blocks; the third stores `epi` of its three blocks; the second stores `lin` of
  the clamped `epi` of its first three blocks with its weight block and its second scale block.
  Also here: the row of the array that row `p` of the n-th block of 5000 rows is.
-/
import proofs.«109330_j71244917506158_2_alg».proof.Proof.Gen.KernelIdeal.Skeleton
import proofs.«109330_j71244917506158_2_alg».proof.Proof.Spec
import proofs.«109330_j71244917506158_2_alg».proof.Proof.LibPlain
import Idealize.ShloMosaic.Lib.Pipeline.Value
import Idealize.ShloMosaic.Lib.ValueLayout

noncomputable section

namespace Cert.Gnn

open Idealize.ShloMosaic Idealize.ShloMosaic.ValueIdx
open Cert.KernelIdeal Cert.KernelIdeal.Gen

/-- Row `p` of the block of 5000 rows that starts at row `5000 n`. -/
def rowAt (n : Nat) (hn : n < 10) (p : Fin 5000) : Fin 50000 := ⟨5000 * n + p.val, by have := p.isLt; omega⟩

/-- The two-axis zero offsets. -/
theorem hz : (![0, 0] : Fin 2 → Nat) = fun _ => 0 := funext fun a => by fin_cases a <;> rfl

/-- The first body: the product of the two loaded blocks, each row scaled by the loaded column. -/
theorem pay0 (x0 : Vec Ideal S5000x128 .f32) (x1 : Vec Ideal S128x64 .f32) (x2 : Vec Ideal S5000x1 .f32) :
    k0_pay1 (F := Ideal) x0 x1 x2 = lin x0 x1 x2 := by
  funext j
  obtain ⟨p, q, rfl⟩ : ∃ (p : Fin 5000) (q : Fin 64), j = ix2 p q := ⟨j 0, j 1, eq_ix2 j⟩
  unfold k0_pay1
  rw [truncf_apply, mulf_apply, lin_apply]
  refine congrArg₂ (· * ·) ?_ ?_
  · exact Ideal.matmul_plain_zero_apply none _ _ p q
  · exact (broadcastTo_col _ _ p q).trans (by rw [shapeCast_self])

/-- A block scaled per row by a column and shifted per column by a row, as the bodies spell it. -/
theorem epiBody (v0 : Vec Ideal S5000x64 .f32) (v2 : Vec Ideal S5000x1 .f32) (v6 : Vec Ideal S1x64 .f32)
    (c0 : S5000x64.ShapeCasts S5000x64) (c1 : S5000x1.ShapeCasts S5000x1) (b1 : S5000x1.Broadcasts S5000x64)
    (c2 : S1x64.ShapeCasts S1x64) (b2 : S1x64.Broadcasts S5000x64) :
    (addf (mulf (shapeCast S5000x64 v0 c0) (broadcastTo S5000x64 (shapeCast S5000x1 v2 c1) b1))
      (broadcastTo S5000x64 (shapeCast S1x64 v6 c2) b2) : FVec Ideal S5000x64 .f32)
    = epi v0 v2 v6 := by
  funext j
  obtain ⟨p, q, rfl⟩ : ∃ (p : Fin 5000) (q : Fin 64), j = ix2 p q := ⟨j 0, j 1, eq_ix2 j⟩
  rw [addf_apply, mulf_apply, epi_apply]
  refine congrArg₂ (· + ·) (congrArg₂ (· * ·) ?_ ?_) ?_
  · rw [shapeCast_self]
  · exact (broadcastTo_col _ _ p q).trans (by rw [shapeCast_self])
  · exact (broadcastTo_1b_ab_apply _ _ p q).trans (by rw [shapeCast_self])

/-- The third body. -/
theorem pay2 (v0 : Vec Ideal S5000x64 .f32) (v2 : Vec Ideal S5000x1 .f32) (v6 : Vec Ideal S1x64 .f32) :
    k2_pay1 (F := Ideal) v0 v2 v6 = epi v0 v2 v6 := by
  unfold k2_pay1
  exact epiBody v0 v2 v6 _ _ _ _ _

/-- The second body. -/
theorem pay1 (v0 : Vec Ideal S5000x64 .f32) (v2 : Vec Ideal S5000x1 .f32) (v6 : Vec Ideal S1x64 .f32) (v13 : Vec Ideal S64x64 .f32)
    (v16 : Vec Ideal S5000x1 .f32) :
    k1_pay1 (F := Ideal) v0 v2 v6 v13 v16 = lin (clamp z0 (epi v0 v2 v6)) v13 v16 := by
  funext j
  obtain ⟨p, q, rfl⟩ : ∃ (p : Fin 5000) (q : Fin 64), j = ix2 p q := ⟨j 0, j 1, eq_ix2 j⟩
  unfold k1_pay1
  rw [epiBody, truncf_apply, mulf_apply, lin_apply]
  refine congrArg₂ (· * ·) ?_ ?_
  · exact Ideal.matmul_plain_zero_apply none _ _ p q
  · exact (broadcastTo_col _ _ p q).trans (by rw [shapeCast_self])

end Cert.Gnn

end
-- ==== Proof.Region0.lean ====
/-
  The first launch, read as one function of the arrays it finds: its output array ends holding `lin` of its three operand
  arrays. Point `t` of the grid of ten works on rows 5000 t … 5000 t + 4999: it loads those rows of the first operand and
  of the scale column, the whole weight array, and writes back those rows of the output; `lin` acts row by row, so what
  it writes is those rows of `lin` of the whole arrays; and the ten blocks of rows cover the output array.
-/
import proofs.«109330_j71244917506158_2_alg».proof.Proof.Gen.KernelIdeal.Frame
import proofs.«109330_j71244917506158_2_alg».proof.Proof.Bodies

noncomputable section

namespace Cert.Gnn

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem lt0 (t : Fin cfg0.N) : t.val < 10 := lt_of_lt_of_eq t.isLt N_0

/-- The block index of each window at point `t`: the row-blocked ones sit at block `t` of their first axis, the weight
    window at its one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The first operand's block at point `t` is rows 5000 t … of the array. -/
theorem blk0_0 (c : Dev nD) (t : Fin cfg0.N) (p : Fin 5000) (k : Fin 128) :
    (iblk0 V c 0 t : Vec Ideal S5000x128 .f32) (ix2 p k) = (V c main_arg0 : S50000x128.Idx → EReal) (ix2 (rowAt t.val (lt0 t) p) k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * p.val = 5000 * t.val + p.val; rw [e0]; omega
  | ⟨1, _⟩ => show win0_0.index t 1 * 128 + 1 * k.val = k.val; rw [e1]; omega

/-- The weight window's block is the whole array. -/
theorem blk0_1 (c : Dev nD) (t : Fin cfg0.N) (k : Fin 128) (q : Fin 64) :
    (iblk0 V c 1 t : Vec Ideal S128x64 .f32) (ix2 k q) = (V c main_arg1 : S128x64.Idx → EReal) (ix2 k q) := by
  obtain ⟨-, -, e0, e1, -⟩ := idx0 t
  unfold iblk0
  rw [View.read_apply]
  show V c main_arg1 _ = V c main_arg1 _
  congr 1
  funext a
  apply Fin.ext
  match a with
  | ⟨0, _⟩ => show win0_1.index t 0 * 128 + 1 * k.val = k.val; rw [e0]; omega
  | ⟨1, _⟩ => show win0_1.index t 1 * 64 + 1 * q.val = q.val; rw [e1]; omega

/-- The scale column's block at point `t` is rows 5000 t … of the column. -/
theorem blk0_2 (c : Dev nD) (t : Fin cfg0.N) (p : Fin 5000) (u : Fin 1) :
    (iblk0 V c 2 t : Vec Ideal S5000x1 .f32) (ix2 p u) = (V c main_v10 : S50000x1.Idx → EReal) (ix2 (rowAt t.val (lt0 t) p) u) := by
  obtain ⟨-, -, -, -, e0, e1, -⟩ := idx0 t
  unfold iblk0
  rw [View.read_apply]
  show V c main_v10 _ = V c main_v10 _
  congr 1
  funext a
  apply Fin.ext
  match a with
  | ⟨0, _⟩ => show win0_2.index t 0 * 5000 + 1 * p.val = 5000 * t.val + p.val; rw [e0]; omega
  | ⟨1, _⟩ => show win0_2.index t 1 * 1 + 1 * u.val = u.val; rw [e1]; omega

/-- An element of the output's block at point `t` sits in rows 5000 t … of the array. -/
theorem emb0_3 (t : Fin cfg0.N) (p : Fin 5000) (q : Fin 64) :
    ((cfg0.win 3).blk t).view.emb (ix2 p q) = (ix2 (rowAt t.val (lt0 t) p) q : S50000x64.Idx) := by
  obtain ⟨-, -, -, -, -, -, e0, e1⟩ := idx0 t
  funext a
  apply Fin.ext
  match a with
  | ⟨0, _⟩ => show win0_3.index t 0 * 5000 + 1 * p.val = 5000 * t.val + p.val; rw [e0]; omega
  | ⟨1, _⟩ => show win0_3.index t 1 * 64 + 1 * q.val = q.val; rw [e1]; omega

/-- What point `t` writes back is block `t` of `lin` of the operand arrays. -/
theorem flushed0 (c : Dev nD) (t : Fin cfg0.N) :
    (dat0 V c).flushed 3 t = ((cfg0.win 3).blk t).view.read (Elt Ideal) (lin (V c main_arg0) (V c main_arg1) (V c main_v10)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S5000x1) hz]
  rw [pay0]
  funext j
  obtain ⟨p, q, rfl⟩ : ∃ (p : Fin 5000) (q : Fin 64), j = ix2 p q := ⟨j 0, j 1, eq_ix2 j⟩
  rw [View.read_apply, emb0_3]
  show lin (iblk0 V c 0 t : Vec Ideal S5000x128 .f32) (iblk0 V c 1 t : Vec Ideal S128x64 .f32) (iblk0 V c 2 t : Vec Ideal S5000x1 .f32) (ix2 p q) = _
  rw [lin_apply, lin_apply, blk0_2]
  exact congrArg (· * _) (Finset.sum_congr rfl fun k _ => by rw [blk0_0, blk0_1])

/-- An index of the output array is in point `t`'s block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v15).slice (win0_3.rect t)).set ↔ _
  rw [View.set_slice_whole, Rect.mem_set_unit]
  exact Iff.rfl

/-- Row r of the output is in the block of point r / 5000. -/
theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have ht : (i 0).val / 5000 < cfg0.N := by rw [show cfg0.N = 10 from N_0]; omega
  refine ⟨⟨(i 0).val / 5000, ht⟩, flush0_3 _, ?_⟩
  rw [mem_blk0]
  obtain ⟨-, -, -, -, -, -, e0, e1⟩ := idx0 ⟨(i 0).val / 5000, ht⟩
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ 1 * 64 ≤ (i 1).val ∧ (i 1).val < win0_3.index ⟨(i 0).val / 5000, ht⟩ 1 * 64 + 64
    rw [e1]; omega

/-- The first launch's output array: `lin` of the operand arrays as the launch finds them. -/
theorem arr0 (c : Dev nD) : (dat0 V c).arrAt 3 cfg0.N = lin (V c main_arg0) (V c main_arg1) (V c main_v10) :=
  (dat0 V c).arrAt_eq_of_cover 3 _ (fun t _ => flushed0 V c t) cover0

end Cert.Gnn

end
-- ==== Proof.Region1.lean ====
/-
  The second launch, read as one function of the arrays it finds: its output array ends holding `lin` of the clamped
  `epi` of its first three operand arrays, with its weight array and its second scale column. Point `t` of the grid of ten
  works on rows 5000 t … 5000 t + 4999 of the row-indexed operands and of the output, and on the whole bias row and
  weight array; `epi`, the clamp and `lin` act row by row; the ten blocks of rows cover the output array.
-/
import proofs.«109330_j71244917506158_2_alg».proof.Proof.Gen.KernelIdeal.Frame
import proofs.«109330_j71244917506158_2_alg».proof.Proof.Bodies

noncomputable section

namespace Cert.Gnn

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem lt1 (t : Fin cfg1.N) : t.val < 10 := lt_of_lt_of_eq t.isLt N_1

/-- The block index of each window at point `t`: the row-blocked ones sit at block `t` of their first axis, the bias row
    and the weight array at their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The aggregated messages' block at point `t` is rows 5000 t … of the array. -/
theorem blk1_0 (c : Dev nD) (t : Fin cfg1.N) (p : Fin 5000) (k : Fin 64) :
    (iblk1 V c 0 t : Vec Ideal S5000x64 .f32) (ix2 p k) = (V c main_v26 : S50000x64.Idx → EReal) (ix2 (rowAt t.val (lt1 t) p) k) := by
  have e0 := (idx1 t).1
  have e1 := (idx1 t).2.1
  unfold iblk1
  rw [View.read_apply]
  show V c main_v26 _ = V c main_v26 _
  congr 1
  funext a
  apply Fin.ext
  match a with
  | ⟨0, _⟩ => show win1_0.index t 0 * 5000 + 1 * p.val = 5000 * t.val + p.val; rw [e0]; omega
  | ⟨1, _⟩ => show win1_0.index t 1 * 64 + 1 * k.val = k.val; rw [e1]; omega

/-- The destination scale's block at point `t` is rows 5000 t … of the column. -/
theorem blk1_1 (c : Dev nD) (t : Fin cfg1.N) (p : Fin 5000) (k : Fin 1) :
    (iblk1 V c 1 t : Vec Ideal S5000x1 .f32) (ix2 p k) = (V c main_v14 : S50000x1.Idx → EReal) (ix2 (rowAt t.val (lt1 t) p) k) := by
  have e0 := (idx1 t).2.2.1
  have e1 := (idx1 t).2.2.2.1
  unfold iblk1
  rw [View.read_apply]
  show V c main_v14 _ = V c main_v14 _
  congr 1
  funext a
  apply Fin.ext
  match a with
  | ⟨0, _⟩ => show win1_1.index t 0 * 5000 + 1 * p.val = 5000 * t.val + p.val; rw [e0]; omega
  | ⟨1, _⟩ => show win1_1.index t 1 * 1 + 1 * k.val = k.val; rw [e1]; omega

/-- The bias row's block is the whole row. -/
theorem blk1_2 (c : Dev nD) (t : Fin cfg1.N) (k : Fin 1) (q : Fin 64) :
    (iblk1 V c 2 t : Vec Ideal S1x64 .f32) (ix2 k q) = (V c main_v27 : S1x64.Idx → EReal) (ix2 k q) := by
  have e0 := (idx1 t).2.2.2.2.1
  have e1 := (idx1 t).2.2.2.2.2.1
  unfold iblk1
  rw [View.read_apply]
  show V c main_v27 _ = V c main_v27 _
  congr 1
  funext a
  apply Fin.ext
  match a with
  | ⟨0, _⟩ => show win1_2.index t 0 * 1 + 1 * k.val = k.val; rw [e0]; omega
  | ⟨1, _⟩ => show win1_2.index t 1 * 64 + 1 * q.val = q.val; rw [e1]; omega

/-- The weight window's block is the whole array. -/
theorem blk1_3 (c : Dev nD) (t : Fin cfg1.N) (k : Fin 64) (q : Fin 64) :
    (iblk1 V c 3 t : Vec Ideal S64x64 .f32) (ix2 k q) = (V c main_arg3 : S64x64.Idx → EReal) (ix2 k q) := by
  have e0 := (idx1 t).2.2.2.2.2.2.1
  have e1 := (idx1 t).2.2.2.2.2.2.2.1
  unfold iblk1
  rw [View.read_apply]
  show V c main_arg3 _ = V c main_arg3 _
  congr 1
  funext a
  apply Fin.ext
  match a with
  | ⟨0, _⟩ => show win1_3.index t 0 * 64 + 1 * k.val = k.val; rw [e0]; omega
  | ⟨1, _⟩ => show win1_3.index t 1 * 64 + 1 * q.val = q.val; rw [e1]; omega

/-- The source scale's block at point `t` is rows 5000 t … of the column. -/
theorem blk1_4 (c : Dev nD) (t : Fin cfg1.N) (p : Fin 5000) (k : Fin 1) :
    (iblk1 V c 4 t : Vec Ideal S5000x1 .f32) (ix2 p k) = (V c main_v10 : S50000x1.Idx → EReal) (ix2 (rowAt t.val (lt1 t) p) k) := by
  have e0 := (idx1 t).2.2.2.2.2.2.2.2.1
  have e1 := (idx1 t).2.2.2.2.2.2.2.2.2.1
  unfold iblk1
  rw [View.read_apply]
  show V c main_v10 _ = V c main_v10 _
  congr 1
  funext a
  apply Fin.ext
  match a with
  | ⟨0, _⟩ => show win1_4.index t 0 * 5000 + 1 * p.val = 5000 * t.val + p.val; rw [e0]; omega
  | ⟨1, _⟩ => show win1_4.index t 1 * 1 + 1 * k.val = k.val; rw [e1]; omega

/-- An element of the output's block at point `t` sits in rows 5000 t … of the array. -/
theorem emb1_5 (t : Fin cfg1.N) (p : Fin 5000) (q : Fin 64) :
    ((cfg1.win 5).blk t).view.emb (ix2 p q) = (ix2 (rowAt t.val (lt1 t) p) q : S50000x64.Idx) := by
  have e0 := (idx1 t).2.2.2.2.2.2.2.2.2.2.1
  have e1 := (idx1 t).2.2.2.2.2.2.2.2.2.2.2
  funext a
  apply Fin.ext
  match a with
  | ⟨0, _⟩ => show win1_5.index t 0 * 5000 + 1 * p.val = 5000 * t.val + p.val; rw [e0]; omega
  | ⟨1, _⟩ => show win1_5.index t 1 * 64 + 1 * q.val = q.val; rw [e1]; omega

/-- What point `t` writes back is block `t` of the layer's function of the operand arrays. -/
theorem flushed1 (c : Dev nD) (t : Fin cfg1.N) :
    (dat1 V c).flushed 5 t = ((cfg1.win 5).blk t).view.read (Elt Ideal)
      (lin (clamp z0 (epi (V c main_v26) (V c main_v14) (V c main_v27))) (V c main_arg3) (V c main_v10)) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S1x64) hz,
    View.ld_unit_zero (S := S64x64) hz]
  rw [pay1]
  funext j
  obtain ⟨p, q, rfl⟩ : ∃ (p : Fin 5000) (q : Fin 64), j = ix2 p q := ⟨j 0, j 1, eq_ix2 j⟩
  rw [View.read_apply, emb1_5]
  show lin (clamp z0 (epi (iblk1 V c 0 t : Vec Ideal S5000x64 .f32) (iblk1 V c 1 t : Vec Ideal S5000x1 .f32) (iblk1 V c 2 t : Vec Ideal S1x64 .f32)))
    (iblk1 V c 3 t : Vec Ideal S64x64 .f32) (iblk1 V c 4 t : Vec Ideal S5000x1 .f32) (ix2 p q) = _
  rw [lin_apply, lin_apply, blk1_4]
  refine congrArg (· * _) (Finset.sum_congr rfl fun k _ => ?_)
  rw [blk1_3, clamp_apply, clamp_apply, epi_apply, epi_apply, blk1_0, blk1_1, blk1_2]

/-- An index of the output array is in point `t`'s block iff each coordinate is in the block's range on its axis. -/
theorem mem_blk1 (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v28).slice (win1_5.rect t)).set ↔ _
  rw [View.set_slice_whole, Rect.mem_set_unit]
  exact Iff.rfl

/-- Row r of the output is in the block of point r / 5000. -/
theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have ht : (i 0).val / 5000 < cfg1.N := by rw [show cfg1.N = 10 from N_1]; omega
  refine ⟨⟨(i 0).val / 5000, ht⟩, flush1_5 _, ?_⟩
  rw [mem_blk1]
  have e0 := (idx1 ⟨(i 0).val / 5000, ht⟩).2.2.2.2.2.2.2.2.2.2.1
  have e1 := (idx1 ⟨(i 0).val / 5000, ht⟩).2.2.2.2.2.2.2.2.2.2.2
  intro a
  match a with
  | ⟨0, _⟩ =>
    show win1_5.index ⟨(i 0).val / 5000, ht⟩ 0 * 5000 ≤ (i 0).val ∧ (i 0).val < win1_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ 1 * 64 ≤ (i 1).val ∧ (i 1).val < win1_5.index ⟨(i 0).val / 5000, ht⟩ 1 * 64 + 64
    rw [e1]; omega

/-- The second launch's output array: the layer's function of the operand arrays as the launch finds them. -/
theorem arr1 (c : Dev nD) : (dat1 V c).arrAt 5 cfg1.N
    = lin (clamp z0 (epi (V c main_v26) (V c main_v14) (V c main_v27))) (V c main_arg3) (V c main_v10) :=
  (dat1 V c).arrAt_eq_of_cover 5 _ (fun t _ => flushed1 V c t) cover1

end Cert.Gnn

end
-- ==== Proof.Region2.lean ====
/-
  The third launch, read as one function of the arrays it finds: its output array ends holding `epi` of its three
  operand arrays. Point `t` of the grid of ten works on rows 5000 t … 5000 t + 4999: it loads those rows of the first
  operand and of the scale column, the whole shift row, and writes back those rows of the output; `epi` acts row by row,
  so what it writes is those rows of `epi` of the whole arrays; and the ten blocks of rows cover the output array.
-/
import proofs.«109330_j71244917506158_2_alg».proof.Proof.Gen.KernelIdeal.Frame
import proofs.«109330_j71244917506158_2_alg».proof.Proof.Bodies

noncomputable section

namespace Cert.Gnn

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem lt2 (t : Fin cfg2.N) : t.val < 10 := lt_of_lt_of_eq t.isLt N_2

/-- The block index of each window at point `t`: the row-blocked ones sit at block `t` of their first axis, the shift
    window at its one block. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The first operand's block at point `t` is rows 5000 t … of the array. -/
theorem blk2_0 (c : Dev nD) (t : Fin cfg2.N) (p : Fin 5000) (q : Fin 64) :
    (iblk2 V c 0 t : Vec Ideal S5000x64 .f32) (ix2 p q) = (V c main_v39 : S50000x64.Idx → EReal) (ix2 (rowAt t.val (lt2 t) p) q) := by
  obtain ⟨e0, e1, -⟩ := idx2 t
  unfold iblk2
  rw [View.read_apply]
  show V c main_v39 _ = V c main_v39 _
  congr 1
  funext a
  apply Fin.ext
  match a with
  | ⟨0, _⟩ => show win2_0.index t 0 * 5000 + 1 * p.val = 5000 * t.val + p.val; rw [e0]; omega
  | ⟨1, _⟩ => show win2_0.index t 1 * 64 + 1 * q.val = q.val; rw [e1]; omega

/-- The scale column's block at point `t` is rows 5000 t … of the column. -/
theorem blk2_1 (c : Dev nD) (t : Fin cfg2.N) (p : Fin 5000) (u : Fin 1) :
    (iblk2 V c 1 t : Vec Ideal S5000x1 .f32) (ix2 p u) = (V c main_v14 : S50000x1.Idx → EReal) (ix2 (rowAt t.val (lt2 t) p) u) := by
  obtain ⟨-, -, e0, e1, -⟩ := idx2 t
  unfold iblk2
  rw [View.read_apply]
  show V c main_v14 _ = V c main_v14 _
  congr 1
  funext a
  apply Fin.ext
  match a with
  | ⟨0, _⟩ => show win2_1.index t 0 * 5000 + 1 * p.val = 5000 * t.val + p.val; rw [e0]; omega
  | ⟨1, _⟩ => show win2_1.index t 1 * 1 + 1 * u.val = u.val; rw [e1]; omega

/-- The shift window's block is the whole row. -/
theorem blk2_2 (c : Dev nD) (t : Fin cfg2.N) (u : Fin 1) (q : Fin 64) :
    (iblk2 V c 2 t : Vec Ideal S1x64 .f32) (ix2 u q) = (V c main_v40 : S1x64.Idx → EReal) (ix2 u q) := by
  obtain ⟨-, -, -, -, e0, e1, -⟩ := idx2 t
  unfold iblk2
  rw [View.read_apply]
  show V c main_v40 _ = V c main_v40 _
  congr 1
  funext a
  apply Fin.ext
  match a with
  | ⟨0, _⟩ => show win2_2.index t 0 * 1 + 1 * u.val = u.val; rw [e0]; omega
  | ⟨1, _⟩ => show win2_2.index t 1 * 64 + 1 * q.val = q.val; rw [e1]; omega

/-- An element of the output's block at point `t` sits in rows 5000 t … of the array. -/
theorem emb2_3 (t : Fin cfg2.N) (p : Fin 5000) (q : Fin 64) :
    ((cfg2.win 3).blk t).view.emb (ix2 p q) = (ix2 (rowAt t.val (lt2 t) p) q : S50000x64.Idx) := by
  obtain ⟨-, -, -, -, -, -, e0, e1⟩ := idx2 t
  funext a
  apply Fin.ext
  match a with
  | ⟨0, _⟩ => show win2_3.index t 0 * 5000 + 1 * p.val = 5000 * t.val + p.val; rw [e0]; omega
  | ⟨1, _⟩ => show win2_3.index t 1 * 64 + 1 * q.val = q.val; rw [e1]; omega

/-- What point `t` writes back is block `t` of `epi` of the operand arrays. -/
theorem flushed2 (c : Dev nD) (t : Fin cfg2.N) :
    (dat2 V c).flushed 3 t = ((cfg2.win 3).blk t).view.read (Elt Ideal) (epi (V c main_v39) (V c main_v14) (V c main_v40)) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S1x64) hz]
  rw [pay2]
  funext j
  obtain ⟨p, q, rfl⟩ : ∃ (p : Fin 5000) (q : Fin 64), j = ix2 p q := ⟨j 0, j 1, eq_ix2 j⟩
  rw [View.read_apply, emb2_3]
  show epi (iblk2 V c 0 t : Vec Ideal S5000x64 .f32) (iblk2 V c 1 t : Vec Ideal S5000x1 .f32) (iblk2 V c 2 t : Vec Ideal S1x64 .f32) (ix2 p q) = _
  rw [epi_apply, epi_apply, blk2_0, blk2_1, blk2_2]
  rfl

/-- An index of the output array is in point `t`'s block iff each coordinate is in the block's range on its axis. -/
theorem mem_blk2 (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v41).slice (win2_3.rect t)).set ↔ _
  rw [View.set_slice_whole, Rect.mem_set_unit]
  exact Iff.rfl

/-- Row r of the output is in the block of point r / 5000. -/
theorem cover2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have ht : (i 0).val / 5000 < cfg2.N := by rw [show cfg2.N = 10 from N_2]; omega
  refine ⟨⟨(i 0).val / 5000, ht⟩, flush2_3 _, ?_⟩
  rw [mem_blk2]
  obtain ⟨-, -, -, -, -, -, e0, e1⟩ := idx2 ⟨(i 0).val / 5000, ht⟩
  intro a
  match a with
  | ⟨0, _⟩ =>
    show win2_3.index ⟨(i 0).val / 5000, ht⟩ 0 * 5000 ≤ (i 0).val ∧ (i 0).val < win2_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win2_3.index ⟨(i 0).val / 5000, ht⟩ 1 * 64 ≤ (i 1).val ∧ (i 1).val < win2_3.index ⟨(i 0).val / 5000, ht⟩ 1 * 64 + 64
    rw [e1]; omega

/-- The third launch's output array: `epi` of the operand arrays as the launch finds them. -/
theorem arr2 (c : Dev nD) : (dat2 V c).arrAt 3 cfg2.N = epi (V c main_v39) (V c main_v14) (V c main_v40) :=
  (dat2 V c).arrAt_eq_of_cover 3 _ (fun t _ => flushed2 V c t) cover2

end Cert.Gnn

end
-- ==== Proof.KernelValue.lean ====
/-
  The kernel's program, read: its result array ends holding `gnn` of the seven argument arrays. The three launches'
  output arrays are `lin`, the clamped layer and `epi` of the arrays each launch finds; between the launches the host
  computes the degree scales once and one message-passing step per layer; composing them from the last launch back to
  the arguments gives the network.
-/
import proofs.«109330_j71244917506158_2_alg».proof.Proof.KRun
import proofs.«109330_j71244917506158_2_alg».proof.Proof.KPlumb
import proofs.«109330_j71244917506158_2_alg».proof.Proof.KValue
import proofs.«109330_j71244917506158_2_alg».proof.Proof.Region0
import proofs.«109330_j71244917506158_2_alg».proof.Proof.Region1
import proofs.«109330_j71244917506158_2_alg».proof.Proof.Region2

noncomputable section

namespace Cert.Gnn

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first launch's output: the first layer's scaled transform. -/
theorem val_h1 (c : Dev nD) : W2 m ρ c (Proc.devRef .tc main_v15)
    = h1 (m ((c : Thread nD τ).loc main_arg0)) (m ((c : Thread nD τ).loc main_arg1)) (m ((c : Thread nD τ).loc main_arg5)) := by
  rw [out0, arr0 (V1 m ρ), in0_x, in0_w, in0_d]
  rfl

/-- The second launch's output: the second layer's scaled transform. -/
theorem val_h2 (c : Dev nD) : W4 m ρ c (Proc.devRef .tc main_v28)
    = h2 (m ((c : Thread nD τ).loc main_arg0)) (m ((c : Thread nD τ).loc main_arg1)) (m ((c : Thread nD τ).loc main_arg2))
        (m ((c : Thread nD τ).loc main_arg3)) (m ((c : Thread nD τ).loc main_arg5)) (m ((c : Thread nD τ).loc main_arg6)) := by
  rw [out1, arr1 (V3 m ρ), in1_g, in1_din, in1_b, in1_w, in1_dout, val_h1]
  rfl

/-- The third launch's output: the network. -/
theorem val_out (c : Dev nD) : W6 m ρ c (Proc.devRef .tc main_v41)
    = gnn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [out2, arr2 (V5 m ρ), in2_g, in2_din, in2_b, val_h2]
  rfl

/-- Every weakly fair execution of the kernel's program terminates with the result array at `gnn` of the arguments and
    the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v41)
        = gnn (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (val_out m ρ c), (h c).2⟩) (krun m ρ)

end Cert.Gnn

end
-- ==== Proof.RefStages.lean ====
/-
  The three dense stages of the reference, read index by index: each is the layer arithmetic of Spec on whole arrays.
  Stage one is the dense transform of the features with each row scaled by its out-degree factor; stage two is the same
  transform applied to the hidden activation (the first propagation scaled by the in-degree factor, shifted, and bounded
  below by zero); stage three is the second propagation scaled by the in-degree factor and shifted. The two propagations
  themselves stay as they are. Each proof reads the stage at (p, q), identifies the composed index maps of the broadcasts
  and of the products with (p, k), (k, q), p and q, and compares with the definitions.
-/
import proofs.«109330_j71244917506158_2_alg».proof.Proof.Gen.ReferenceIdeal.Read
import proofs.«109330_j71244917506158_2_alg».proof.Proof.Spec
import proofs.«109330_j71244917506158_2_alg».proof.Proof.LibPlain
import Idealize.ShloMosaic.Lib.ValueLayout

noncomputable section
namespace Cert.Gnn
open Idealize.ShloMosaic
open Cert.ReferenceIdeal Cert.ReferenceIdeal.Read

/-- The product's left operand is read at (p, k) -/
private theorem lidx13 (p : Fin 50000) (q : Fin 64) (k : Fin 128) : lidx_main_v13 (ValueIdx.ix2 p q) k = ValueIdx.ix2 p k :=
  funext fun a => Fin.ext (by match a with | ⟨0, _⟩ => rfl | ⟨1, _⟩ => rfl)
/-- and the right at (k, q). -/
private theorem ridx13 (p : Fin 50000) (q : Fin 64) (k : Fin 128) : ridx_main_v13 (ValueIdx.ix2 p q) k = ValueIdx.ix2 k q :=
  funext fun a => Fin.ext (by match a with | ⟨0, _⟩ => rfl | ⟨1, _⟩ => rfl)
/-- The scale broadcast to the whole array is read at row p of the vector. -/
private theorem idx15 (p : Fin 50000) (q : Fin 64) : idx_main_v14 (idx_main_v15 (ValueIdx.ix2 p q)) = ValueIdx.ix1 p :=
  funext fun a => Fin.ext (by match a with | ⟨0, _⟩ => rfl)

/-- The first stage of the reference: the dense transform of the features, each row scaled by its out-degree factor. -/
theorem ref1 (x0 : (⟨S50000x128, .f32⟩ : BufTy).Contents (Elt Ideal)) (x1 : (⟨S128x64, .f32⟩ : BufTy).Contents (Elt Ideal)) (x5 : (⟨S800000, .i32⟩ : BufTy).Contents (Elt Ideal)) :
    val_main_v16 (F := Ideal) x0 x1 x5 = lin x0 x1 (colOf (val_main_v9 (F := Ideal) x5)) := by
  funext j
  obtain ⟨p, q, rfl⟩ : ∃ (p : Fin 50000) (q : Fin 64), j = ValueIdx.ix2 p q := ⟨j 0, j 1, ValueIdx.eq_ix2 j⟩
  rw [val_main_v16_apply, val_main_v13_apply, val_main_v15_apply, val_main_v14_apply, idx15, lin_apply, colOf_apply, Ideal.mulf_def]
  exact congrArg (· * val_main_v9 (F := Ideal) x5 (ValueIdx.ix1 p)) (Finset.sum_congr rfl fun k _ => by rw [lidx13, ridx13])

/-- The in-degree factor broadcast to the whole array is read at row p of the vector -/
private theorem idx49 (p : Fin 50000) (q : Fin 64) : idx_main_v48 (idx_main_v49 (ValueIdx.ix2 p q)) = ValueIdx.ix1 p :=
  funext fun a => Fin.ext (by match a with | ⟨0, _⟩ => rfl)
/-- and the shift broadcast to the whole array at column q of the vector. -/
private theorem idx52 (p : Fin 50000) (q : Fin 64) : idx_main_v51 (idx_main_v52 (ValueIdx.ix2 p q)) = ValueIdx.ix1 q :=
  funext fun a => Fin.ext (by match a with | ⟨0, _⟩ => rfl)

/-- The last stage of the reference: the second propagation, each row scaled by its in-degree factor, plus the second shift. -/
theorem ref3 (x0 : (⟨S50000x128, .f32⟩ : BufTy).Contents (Elt Ideal)) (x1 : (⟨S128x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 x6 : (⟨S800000, .i32⟩ : BufTy).Contents (Elt Ideal)) :
    val_main_v53 (F := Ideal) x0 x1 x2 x3 x4 x5 x6
      = epi (val_main_v47 (F := Ideal) x0 x1 x2 x3 x5 x6) (colOf (val_main_v12 (F := Ideal) x6)) (rowOf x4) := by
  funext j
  obtain ⟨p, q, rfl⟩ : ∃ (p : Fin 50000) (q : Fin 64), j = ValueIdx.ix2 p q := ⟨j 0, j 1, ValueIdx.eq_ix2 j⟩
  rw [val_main_v53_apply, val_main_v50_apply, val_main_v49_apply, val_main_v48_apply, idx49, val_main_v52_apply, val_main_v51_apply, idx52,
    epi_apply, colOf_apply, rowOf_apply, Ideal.mulf_def, Ideal.addf_def]

/-- The first layer's in-degree factor broadcast to the whole array is read at row p of the vector -/
private theorem idx28 (p : Fin 50000) (k : Fin 64) : idx_main_v27 (idx_main_v28 (ValueIdx.ix2 p k)) = ValueIdx.ix1 p :=
  funext fun a => Fin.ext (by match a with | ⟨0, _⟩ => rfl)
/-- and the first shift at column k of the vector. -/
private theorem idx31 (p : Fin 50000) (k : Fin 64) : idx_main_v30 (idx_main_v31 (ValueIdx.ix2 p k)) = ValueIdx.ix1 k :=
  funext fun a => Fin.ext (by match a with | ⟨0, _⟩ => rfl)
/-- The second product's left operand is read at (p, k) -/
private theorem lidx34 (p : Fin 50000) (q : Fin 64) (k : Fin 64) : lidx_main_v34 (ValueIdx.ix2 p q) k = ValueIdx.ix2 p k :=
  funext fun a => Fin.ext (by match a with | ⟨0, _⟩ => rfl | ⟨1, _⟩ => rfl)
/-- and the right at (k, q). -/
private theorem ridx34 (p : Fin 50000) (q : Fin 64) (k : Fin 64) : ridx_main_v34 (ValueIdx.ix2 p q) k = ValueIdx.ix2 k q :=
  funext fun a => Fin.ext (by match a with | ⟨0, _⟩ => rfl | ⟨1, _⟩ => rfl)
/-- The out-degree factor broadcast to the whole array is read at row p of the vector. -/
private theorem idx36 (p : Fin 50000) (q : Fin 64) : idx_main_v35 (idx_main_v36 (ValueIdx.ix2 p q)) = ValueIdx.ix1 p :=
  funext fun a => Fin.ext (by match a with | ⟨0, _⟩ => rfl)

/-- The hidden activation at (p, k): the first propagation scaled by the in-degree factor, shifted, bounded below by zero. -/
theorem ref_relu_at (x0 : (⟨S50000x128, .f32⟩ : BufTy).Contents (Elt Ideal)) (x1 : (⟨S128x64, .f32⟩ : BufTy).Contents (Elt Ideal)) (x2 : (⟨S64, .f32⟩ : BufTy).Contents (Elt Ideal)) (x5 x6 : (⟨S800000, .i32⟩ : BufTy).Contents (Elt Ideal)) (p : Fin 50000) (k : Fin 64) :
    val_main_v33 (F := Ideal) x0 x1 x2 x5 x6 (ValueIdx.ix2 p k)
      = clamp z0 (epi (val_main_v26 (F := Ideal) x0 x1 x5 x6) (colOf (val_main_v12 (F := Ideal) x6)) (rowOf x2)) (ValueIdx.ix2 p k) := by
  rw [val_main_v33_apply, val_main_v32_apply, val_main_v29_apply, val_main_v28_apply, val_main_v27_apply, idx28, val_main_v31_apply, val_main_v30_apply, idx31,
    val_main_call0_v0_apply, val_main_call0_cst_apply, clamp_apply, epi_apply, colOf_apply, rowOf_apply, Ideal.mulf_def, Ideal.addf_def, Ideal.maximumf_def]
  rfl

/-- The middle stage of the reference: the dense transform of the hidden activation, each row scaled by its out-degree factor. -/
theorem ref2 (x0 : (⟨S50000x128, .f32⟩ : BufTy).Contents (Elt Ideal)) (x1 : (⟨S128x64, .f32⟩ : BufTy).Contents (Elt Ideal)) (x2 : (⟨S64, .f32⟩ : BufTy).Contents (Elt Ideal)) (x3 : (⟨S64x64, .f32⟩ : BufTy).Contents (Elt Ideal)) (x5 x6 : (⟨S800000, .i32⟩ : BufTy).Contents (Elt Ideal)) :
    val_main_v37 (F := Ideal) x0 x1 x2 x3 x5 x6
      = lin (clamp z0 (epi (val_main_v26 (F := Ideal) x0 x1 x5 x6) (colOf (val_main_v12 (F := Ideal) x6)) (rowOf x2))) x3 (colOf (val_main_v9 (F := Ideal) x5)) := by
  funext j
  obtain ⟨p, q, rfl⟩ : ∃ (p : Fin 50000) (q : Fin 64), j = ValueIdx.ix2 p q := ⟨j 0, j 1, ValueIdx.eq_ix2 j⟩
  rw [val_main_v37_apply, val_main_v34_apply, val_main_v36_apply, val_main_v35_apply, idx36, lin_apply, colOf_apply, Ideal.mulf_def]
  exact congrArg (· * val_main_v9 (F := Ideal) x5 (ValueIdx.ix1 p)) (Finset.sum_congr rfl fun k _ => by rw [lidx34, ridx34, ref_relu_at])

end Cert.Gnn

end
-- ==== Proof.RefValue.lean ====
/-
  The reference's output is the network of KValue applied to the seven arguments. The degree scales, the shift rows and
  the message-passing steps of the two programs are the same compositions of host operations, spelt with each program's
  own shape records; the records have equal fields, so these equalities hold between the whole terms and nothing is read
  at an index except the two recasts (a vector as a column, a vector as a row). With them, the three dense stages of
  RefStages chain into the network's definition.
-/
import proofs.«109330_j71244917506158_2_alg».proof.Proof.Gen.ReferenceIdeal.Read
import proofs.«109330_j71244917506158_2_alg».proof.Proof.KValue
import proofs.«109330_j71244917506158_2_alg».proof.Proof.RefStages
import proofs.«109330_j71244917506158_2_alg».proof.Proof.LibPlain
import Idealize.ShloMosaic.Lib.ValueLayout

noncomputable section
namespace Cert.Gnn
open Idealize.ShloMosaic
open Cert.ReferenceIdeal Cert.ReferenceIdeal.Read

/-- The kernel program's degree vector and the reference's are the same composition of host operations (source degrees) -/
theorem ref_dvec_v9 (x : (⟨S800000, .i32⟩ : BufTy).Contents (Elt Ideal)) : K.dvec (F := Ideal) x = val_main_v9 (F := Ideal) x := rfl
/-- (destination degrees). -/
theorem ref_dvec_v12 (x : (⟨S800000, .i32⟩ : BufTy).Contents (Elt Ideal)) : K.dvec (F := Ideal) x = val_main_v12 (F := Ideal) x := rfl

/-- The degree vector recast as a column is the column of the degree vector. -/
theorem ref_dcol_eq (x : (⟨S800000, .i32⟩ : BufTy).Contents (Elt Ideal)) : K.dcol (F := Ideal) x = colOf (K.dvec (F := Ideal) x) := by
  funext j
  obtain ⟨p, u, rfl⟩ : ∃ (p : Fin 50000) (u : Fin 1), j = ValueIdx.ix2 p u := ⟨j 0, j 1, ValueIdx.eq_ix2 j⟩
  exact shapeCast_col (K.dvec (F := Ideal) x) _ p u
theorem ref_dcol_v9 (x : (⟨S800000, .i32⟩ : BufTy).Contents (Elt Ideal)) : K.dcol (F := Ideal) x = colOf (val_main_v9 (F := Ideal) x) :=
  (ref_dcol_eq x).trans (congrArg colOf (ref_dvec_v9 x))
theorem ref_dcol_v12 (x : (⟨S800000, .i32⟩ : BufTy).Contents (Elt Ideal)) : K.dcol (F := Ideal) x = colOf (val_main_v12 (F := Ideal) x) :=
  (ref_dcol_eq x).trans (congrArg colOf (ref_dvec_v12 x))

/-- A shift vector recast as a row is the row of the vector. -/
theorem ref_brow_eq (b : (⟨S64, .f32⟩ : BufTy).Contents (Elt Ideal)) : K.brow (F := Ideal) b = rowOf b := by
  funext j
  obtain ⟨u, q, rfl⟩ : ∃ (u : Fin 1) (q : Fin 64), j = ValueIdx.ix2 u q := ⟨j 0, j 1, ValueIdx.eq_ix2 j⟩
  exact ValueIdx.shapeCast_a_1a_apply b _ u q

/-- One message-passing step of the kernel program is the reference's scatter-add of the gathered rows (first layer's stage names) -/
theorem ref_prop_26 (h : S50000x64.Idx → EReal) (x5 x6 : (⟨S800000, .i32⟩ : BufTy).Contents (Elt Ideal)) :
    K.prop (F := Ideal) h x5 x6 = Host.scatterAdd scatter_S50000x64_S800000x1_S800000x64_1_0_0_1 (val_main_v24 (F := Ideal)) (val_main_v25 (F := Ideal) x6) (Host.gather gather_S50000x64_S800000x1_S800000x64_1_0_n_n_0_1_164 h (val_main_v22 (F := Ideal) x5)) := rfl
/-- (second layer's stage names). -/
theorem ref_prop_47 (h : S50000x64.Idx → EReal) (x5 x6 : (⟨S800000, .i32⟩ : BufTy).Contents (Elt Ideal)) :
    K.prop (F := Ideal) h x5 x6 = Host.scatterAdd scatter_S50000x64_S800000x1_S800000x64_1_0_0_1 (val_main_v45 (F := Ideal)) (val_main_v46 (F := Ideal) x6) (Host.gather gather_S50000x64_S800000x1_S800000x64_1_0_n_n_0_1_164 h (val_main_v43 (F := Ideal) x5)) := rfl

/-- The reference's first propagation is the step applied to its first stage -/
theorem ref_v26_eq (x0 : (⟨S50000x128, .f32⟩ : BufTy).Contents (Elt Ideal)) (x1 : (⟨S128x64, .f32⟩ : BufTy).Contents (Elt Ideal)) (x5 x6 : (⟨S800000, .i32⟩ : BufTy).Contents (Elt Ideal)) :
    val_main_v26 (F := Ideal) x0 x1 x5 x6 = K.prop (F := Ideal) (val_main_v16 (F := Ideal) x0 x1 x5) x5 x6 :=
  (ref_prop_26 (val_main_v16 (F := Ideal) x0 x1 x5) x5 x6).symm
/-- and its second the step applied to its middle stage. -/
theorem ref_v47_eq (x0 : (⟨S50000x128, .f32⟩ : BufTy).Contents (Elt Ideal)) (x1 : (⟨S128x64, .f32⟩ : BufTy).Contents (Elt Ideal)) (x2 : (⟨S64, .f32⟩ : BufTy).Contents (Elt Ideal)) (x3 : (⟨S64x64, .f32⟩ : BufTy).Contents (Elt Ideal)) (x5 x6 : (⟨S800000, .i32⟩ : BufTy).Contents (Elt Ideal)) :
    val_main_v47 (F := Ideal) x0 x1 x2 x3 x5 x6 = K.prop (F := Ideal) (val_main_v37 (F := Ideal) x0 x1 x2 x3 x5 x6) x5 x6 :=
  (ref_prop_47 (val_main_v37 (F := Ideal) x0 x1 x2 x3 x5 x6) x5 x6).symm

/-- The reference computes the network. -/
theorem ref_value (x0 : (⟨S50000x128, .f32⟩ : BufTy).Contents (Elt Ideal)) (x1 : (⟨S128x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 x6 : (⟨S800000, .i32⟩ : BufTy).Contents (Elt Ideal)) :
    val_main_v53 (F := Ideal) x0 x1 x2 x3 x4 x5 x6 = gnn x0 x1 x2 x3 x4 x5 x6 := by
  rw [ref3, ref_v47_eq, ref2, ref_v26_eq, ref1, ← ref_dcol_v9, ← ref_dcol_v12, ← ref_brow_eq x2, ← ref_brow_eq x4]
  rfl

end Cert.Gnn

end
-- ==== Proof.lean ====
/-
  Equivalence, on extended reals, of a two-layer graph convolution computed by three tiled launches with host
  gather / scatter-add steps between them, and the same network written with whole-array operations.

  Both programs compute, from node features x, weights W1, W2, biases b1, b2 and edge lists src, dst:
  d_out = rsqrt (max (deg_out, 1)), d_in = rsqrt (max (deg_in, 1)), the degrees counted by scatter-adding ones;
  H1 = (x W1) scaled per row by d_out;  A1 = the rows of H1 gathered by src and added into the rows named by dst;
  Z = max (A1 scaled per row by d_in, plus b1; 0);  H2 = (Z W2) scaled per row by d_out;  A2 = the same
  message-passing step on H2;  the result is A2 scaled per row by d_in, plus b2.
  The tiled program computes H1, H2 and the result in blocks of 5000 rows; every one of these steps acts row by row, so
  the blocks are the rows of the whole-array function, and the ten blocks cover each array. A change of float format
  is the identity on extended reals, and a product into a zero accumulator is the plain sum. The gather and scatter-add
  steps and the degree scales are the same host operations in both programs and are carried whole, never opened.
  No step uses a law that needs finite inputs, so the precondition is not used.
-/
import proofs.«109330_j71244917506158_2_alg».proof.Defs
import proofs.«109330_j71244917506158_2_alg».proof.Proof.Gen.Kernel
import proofs.«109330_j71244917506158_2_alg».proof.Proof.Gen.Kernel.Frame
import proofs.«109330_j71244917506158_2_alg».proof.Proof.Gen.KernelIdeal
import proofs.«109330_j71244917506158_2_alg».proof.Proof.Gen.KernelIdeal.Frame
import proofs.«109330_j71244917506158_2_alg».proof.Proof.Gen.ReferenceIdeal
import proofs.«109330_j71244917506158_2_alg».proof.Proof.Gen.ReferenceIdeal.Run
import proofs.«109330_j71244917506158_2_alg».proof.Proof.Gen.ReferenceIdeal.Read
import proofs.«109330_j71244917506158_2_alg».proof.Proof.Gen.Pre_finite_inputs
import proofs.«109330_j71244917506158_2_alg».proof.Proof.KernelValue
import proofs.«109330_j71244917506158_2_alg».proof.Proof.RefValue

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network's function of the arguments in their result arrays. -/
theorem algebraic : Cert.algebraic_KernelIdeal_ReferenceIdeal := by
  intro m ρ m' ρ' _ hagree
  refine ⟨_, Cert.Gnn.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.Gnn.ref_value, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
